-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x32x16 : Shape := ⟨3, ![1, 32, 16]⟩
abbrev S16x32x16 : Shape := ⟨3, ![16, 32, 16]⟩
abbrev S16x64x1 : Shape := ⟨3, ![16, 64, 1]⟩
abbrev S8x2048 : Shape := ⟨2, ![8, 2048]⟩
abbrev S_ : Shape := ⟨0, ![]⟩

class Facts : Prop where
  bcast_S_S1x32x16 : S_.BroadcastsInDim S1x32x16 (![] : Fin 0 → Fin S1x32x16.rank)
  reducesTo_S1x32x16_S_d0_1_2 : S1x32x16.ReducesTo [0, 1, 2] S_
  h_S_ : 0 < S_.numel
  bcast_S_S16x32x16 : S_.BroadcastsInDim S16x32x16 (![] : Fin 0 → Fin S16x32x16.rank)
  reducesTo_S16x32x16_S_d0_1_2 : S16x32x16.ReducesTo [0, 1, 2] S_
  bcast_S_S16x64x1 : S_.BroadcastsInDim S16x64x1 (![] : Fin 0 → Fin S16x64x1.rank)
  reducesTo_S16x64x1_S_d0_1_2 : S16x64x1.ReducesTo [0, 1, 2] S_

variable [Facts]

def fn_part1 {F : FTy → Type} [FloatOps F] (main_arg4 : FVec F S16x64x1 .f32) (main_v13 : IVec S_ 1) (main_v16 : IVec S16x32x16 1) : IVec S_ 1 :=
  let main_c_5 : IVec S_ 1 := constantI S_ 1 1#1
  let main_v17 : IVec S_ 1 := (fun x v => Host.reduce IntOp.andi x v reducesTo_S16x32x16_S_d0_1_2 h_S_) main_v16 main_c_5
  let main_v18 : IVec S_ 1 := andi main_v13 main_v17
  let main_v19 : FVec F S16x64x1 .f32 := Host.absf main_arg4
  let main_cst_6 : FVec F S_ .f32 := constant S_ .f32 0x7F800000#32
  let main_v20 : FVec F S16x64x1 .f32 := broadcastInDim S16x64x1 ![] bcast_S_S16x64x1 main_cst_6
  let main_v21 : IVec S16x64x1 1 := cmpf .olt main_v19 main_v20
  let main_c_7 : IVec S_ 1 := constantI S_ 1 1#1
  let main_v22 : IVec S_ 1 := (fun x v => Host.reduce IntOp.andi x v reducesTo_S16x64x1_S_d0_1_2 h_S_) main_v21 main_c_7
  let main_v23 : IVec S_ 1 := andi main_v18 main_v22
  main_v23

def fn {F : FTy → Type} [FloatOps F] (main_arg0 : FVec F S1x32x16 .f32) (main_arg1 : FVec F S16x32x16 .f32) (main_arg2 : FVec F S16x32x16 .f32) (main_arg3 : FVec F S16x32x16 .f32) (main_arg4 : FVec F S16x64x1 .f32) (main_arg5 : IVec S8x2048 32) : IVec S_ 1 :=
  let main_v0 : FVec F S1x32x16 .f32 := Host.absf main_arg0
  let main_cst : FVec F S_ .f32 := constant S_ .f32 0x7F800000#32
  let main_v1 : FVec F S1x32x16 .f32 := broadcastInDim S1x32x16 ![] bcast_S_S1x32x16 main_cst
  let main_v2 : IVec S1x32x16 1 := cmpf .olt main_v0 main_v1
  let main_c : IVec S_ 1 := constantI S_ 1 1#1
  let main_v3 : IVec S_ 1 := (fun x v => Host.reduce IntOp.andi x v reducesTo_S1x32x16_S_d0_1_2 h_S_) main_v2 main_c
  let main_v4 : FVec F S16x32x16 .f32 := Host.absf main_arg1
  let main_cst_0 : FVec F S_ .f32 := constant S_ .f32 0x7F800000#32
  let main_v5 : FVec F S16x32x16 .f32 := broadcastInDim S16x32x16 ![] bcast_S_S16x32x16 main_cst_0
  let main_v6 : IVec S16x32x16 1 := cmpf .olt main_v4 main_v5
  let main_c_1 : IVec S_ 1 := constantI S_ 1 1#1
  let main_v7 : IVec S_ 1 := (fun x v => Host.reduce IntOp.andi x v reducesTo_S16x32x16_S_d0_1_2 h_S_) main_v6 main_c_1
  let main_v8 : IVec S_ 1 := andi main_v3 main_v7
  let main_v9 : FVec F S16x32x16 .f32 := Host.absf main_arg2
  let main_cst_2 : FVec F S_ .f32 := constant S_ .f32 0x7F800000#32
  let main_v10 : FVec F S16x32x16 .f32 := broadcastInDim S16x32x16 ![] bcast_S_S16x32x16 main_cst_2
  let main_v11 : IVec S16x32x16 1 := cmpf .olt main_v9 main_v10
  let main_c_3 : IVec S_ 1 := constantI S_ 1 1#1
  let main_v12 : IVec S_ 1 := (fun x v => Host.reduce IntOp.andi x v reducesTo_S16x32x16_S_d0_1_2 h_S_) main_v11 main_c_3
  let main_v13 : IVec S_ 1 := andi main_v8 main_v12
  let main_v14 : FVec F S16x32x16 .f32 := Host.absf main_arg3
  let main_cst_4 : FVec F S_ .f32 := constant S_ .f32 0x7F800000#32
  let main_v15 : FVec F S16x32x16 .f32 := broadcastInDim S16x32x16 ![] bcast_S_S16x32x16 main_cst_4
  let main_v16 : IVec S16x32x16 1 := cmpf .olt main_v14 main_v15
  fn_part1 (F := F) main_arg4 main_v13 main_v16
-- ==== Kernel.lean ====
abbrev S1x32x16 : Shape := ⟨3, ![1, 32, 16]⟩
abbrev S16x32x16 : Shape := ⟨3, ![16, 32, 16]⟩
abbrev S16x64x1 : Shape := ⟨3, ![16, 64, 1]⟩
abbrev S8x2048 : Shape := ⟨2, ![8, 2048]⟩
abbrev S32x16 : Shape := ⟨2, ![32, 16]⟩
abbrev S16x512 : Shape := ⟨2, ![16, 512]⟩
abbrev S16x64 : Shape := ⟨2, ![16, 64]⟩
abbrev S65536x1024 : Shape := ⟨2, ![65536, 1024]⟩
abbrev S2048x1024 : Shape := ⟨2, ![2048, 1024]⟩
abbrev S1x32 : Shape := ⟨2, ![1, 32]⟩
abbrev S1x16 : Shape := ⟨2, ![1, 16]⟩
abbrev S1x512 : Shape := ⟨2, ![1, 512]⟩
abbrev S32x512 : Shape := ⟨2, ![32, 512]⟩
abbrev S1024x16 : Shape := ⟨2, ![1024, 16]⟩
abbrev S1024x512 : Shape := ⟨2, ![1024, 512]⟩
abbrev S32768x16 : Shape := ⟨2, ![32768, 16]⟩
abbrev S32768x64 : Shape := ⟨2, ![32768, 64]⟩
abbrev S_ : Shape := ⟨0, ![]⟩
abbrev S8x2048x1 : Shape := ⟨3, ![8, 2048, 1]⟩
abbrev S1 : Shape := ⟨1, ![1]⟩
abbrev S1x1x1 : Shape := ⟨3, ![1, 1, 1]⟩
abbrev S8x2048x1024 : Shape := ⟨3, ![8, 2048, 1024]⟩

abbrev nBuf : Space → Nat
  | .hbm => 35
  | .vmem => 7
  | .smem => 0
  | _ => 0

abbrev bufTy : (tb : Table) → Fin (tcTables nBuf tb) → BufTy
  | .hbm, ⟨0, _⟩ => ⟨S1x32x16, .f32⟩
  | .hbm, ⟨1, _⟩ => ⟨S16x32x16, .f32⟩
  | .hbm, ⟨2, _⟩ => ⟨S16x32x16, .f32⟩
  | .hbm, ⟨3, _⟩ => ⟨S16x32x16, .f32⟩
  | .hbm, ⟨4, _⟩ => ⟨S16x64x1, .f32⟩
  | .hbm, ⟨5, _⟩ => ⟨S8x2048, .i32⟩
  | .hbm, ⟨6, _⟩ => ⟨S32x16, .f32⟩
  | .hbm, ⟨7, _⟩ => ⟨S16x512, .f32⟩
  | .hbm, ⟨8, _⟩ => ⟨S16x512, .f32⟩
  | .hbm, ⟨9, _⟩ => ⟨S16x512, .f32⟩
  | .hbm, ⟨10, _⟩ => ⟨S16x64, .f32⟩
  | .hbm, ⟨11, _⟩ => ⟨S65536x1024, .f32⟩
  | .hbm, ⟨12, _⟩ => ⟨S_, .i32⟩
  | .hbm, ⟨13, _⟩ => ⟨S8x2048, .i32⟩
  | .hbm, ⟨14, _⟩ => ⟨S8x2048, .i1⟩
  | .hbm, ⟨15, _⟩ => ⟨S_, .i32⟩
  | .hbm, ⟨16, _⟩ => ⟨S8x2048, .i32⟩
  | .hbm, ⟨17, _⟩ => ⟨S8x2048, .i32⟩
  | .hbm, ⟨18, _⟩ => ⟨S8x2048, .i32⟩
  | .hbm, ⟨19, _⟩ => ⟨S8x2048x1, .i32⟩
  | .hbm, ⟨20, _⟩ => ⟨S1, .i32⟩
  | .hbm, ⟨21, _⟩ => ⟨S_, .i32⟩
  | .hbm, ⟨22, _⟩ => ⟨S8x2048x1, .i32⟩
  | .hbm, ⟨23, _⟩ => ⟨S8x2048x1, .i1⟩
  | .hbm, ⟨24, _⟩ => ⟨S1x1x1, .i32⟩
  | .hbm, ⟨25, _⟩ => ⟨S8x2048x1, .i32⟩
  | .hbm, ⟨26, _⟩ => ⟨S8x2048x1, .i1⟩
  | .hbm, ⟨27, _⟩ => ⟨S8x2048x1, .i1⟩
  | .hbm, ⟨28, _⟩ => ⟨S_, .i1⟩
  | .hbm, ⟨29, _⟩ => ⟨S8x2048, .i1⟩
  | .hbm, ⟨30, _⟩ => ⟨S8x2048x1024, .f32⟩
  | .hbm, ⟨31, _⟩ => ⟨S8x2048x1024, .i1⟩
  | .hbm, ⟨32, _⟩ => ⟨S_, .f32⟩
  | .hbm, ⟨33, _⟩ => ⟨S8x2048x1024, .f32⟩
  | .hbm, ⟨34, _⟩ => ⟨S8x2048x1024, .f32⟩
  | .local _ .vmem, ⟨0, _⟩ => ⟨S32x16, .f32⟩
  | .local _ .vmem, ⟨1, _⟩ => ⟨S16x512, .f32⟩
  | .local _ .vmem, ⟨2, _⟩ => ⟨S16x512, .f32⟩
  | .local _ .vmem, ⟨3, _⟩ => ⟨S16x512, .f32⟩
  | .local _ .vmem, ⟨4, _⟩ => ⟨S16x64, .f32⟩
  | .local _ .vmem, ⟨5, _⟩ => ⟨S2048x1024, .f32⟩
  | .local _ .vmem, ⟨6, _⟩ => ⟨S2048x1024, .f32⟩
  | _, _ => ⟨S1x32x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v6 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S1x32x16_S32x16 : S1x32x16.ShapeCasts S32x16
  shapeCasts_S16x32x16_S16x512 : S16x32x16.ShapeCasts S16x512
  shapeCasts_S16x64x1_S16x64 : S16x64x1.ShapeCasts S16x64
  iota_S1x32_d1_w32 : S1x32.Iotas .tc 32 [1]
  natLt_1_32 : 1 < 32
  inb_S32x16_S32x16_0_0 : ∀ a, (![0, 0] : Fin 2 → Nat) a + S32x16.size a ≤ S32x16.size a
  h_S32x16 : 0 < S32x16.numel
  shapeCasts_S32x16_S32x16 : S32x16.ShapeCasts S32x16
  inb_S16x512_S16x512_0_0 : ∀ a, (![0, 0] : Fin 2 → Nat) a + S16x512.size a ≤ S16x512.size a
  h_S16x512 : 0 < S16x512.numel
  shapeCasts_S16x512_S16x512 : S16x512.ShapeCasts S16x512
  shapeCasts_S1x512_S32x16 : S1x512.ShapeCasts S32x16
  shapeCasts_S32x512_S1024x16 : S32x512.ShapeCasts S1024x16
  shapeCasts_S1024x512_S32768x16 : S1024x512.ShapeCasts S32768x16
  inb_S16x64_S16x64_0_0 : ∀ a, (![0, 0] : Fin 2 → Nat) a + S16x64.size a ≤ S16x64.size a
  h_S16x64 : 0 < S16x64.numel
  shapeCasts_S16x64_S16x64 : S16x64.ShapeCasts S16x64
  shapeCasts_S32768x64_S2048x1024 : S32768x64.ShapeCasts S2048x1024
  inb_S2048x1024_S2048x1024_0_0 : ∀ a, (![0, 0] : Fin 2 → Nat) a + S2048x1024.size a ≤ S2048x1024.size a
  h_S2048x1024 : 0 < S2048x1024.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S1_S1x1x1_2 : S1.BroadcastsInDim S1x1x1 (![2] : Fin 1 → Fin S1x1x1.rank)
  bcast_S1x1x1_S8x2048x1_0_1_2 : S1x1x1.BroadcastsInDim S8x2048x1 (![0, 1, 2] : Fin 3 → Fin S8x2048x1.rank)
  reducesTo_S8x2048x1_S8x2048_d2 : S8x2048x1.ReducesTo [2] S8x2048
  h_S_ : 0 < S_.numel
  bcast_S8x2048_S8x2048x1024_0_1 : S8x2048.BroadcastsInDim S8x2048x1024 (![0, 1] : Fin 2 → Fin S8x2048x1024.rank)
  bcast_S_S8x2048x1024 : S_.BroadcastsInDim S8x2048x1024 (![] : Fin 0 → Fin S8x2048x1024.rank)
  dot_S1x32_S32x16_S1x16_1_0_0_1_n_n_wf : DotDims.WF S1x32 S32x16 S1x16 [1] [0] [0] [1] [] []
  dot_S1x16_S16x512_S1x512_1_0_0_1_n_n_wf : DotDims.WF S1x16 S16x512 S1x512 [1] [0] [0] [1] [] []
  dot_S32x16_S16x512_S32x512_1_0_0_1_n_n_wf : DotDims.WF S32x16 S16x512 S32x512 [1] [0] [0] [1] [] []
  dot_S1024x16_S16x512_S1024x512_1_0_0_1_n_n_wf : DotDims.WF S1024x16 S16x512 S1024x512 [1] [0] [0] [1] [] []
  dot_S32768x16_S16x64_S32768x64_1_0_0_1_n_n_wf : DotDims.WF S32768x16 S16x64 S32768x64 [1] [0] [0] [1] [] []
  gather_S65536x1024_S8x2048x1_S8x2048x1024_2_0_n_n_0_2_11024_wf : GatherDims.WF S65536x1024 S8x2048x1 S8x2048x1024 [2] [0] [] [0] [] 2 ![1, 1024]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x16.size a ≤ S32x16.size a
  hwx0_0 : ∀ i : grid0.Coords, EltTy.bits .f32 = 32 ∨ (Rect.block (s := S32x16) S32x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x512.size a ≤ S16x512.size a
  hwx0_1 : ∀ i : grid0.Coords, EltTy.bits .f32 = 32 ∨ (Rect.block (s := S16x512) S16x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x512.size a ≤ S16x512.size a
  hwx0_2 : ∀ i : grid0.Coords, EltTy.bits .f32 = 32 ∨ (Rect.block (s := S16x512) S16x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x512.size a ≤ S16x512.size a
  hwx0_3 : ∀ i : grid0.Coords, EltTy.bits .f32 = 32 ∨ (Rect.block (s := S16x512) S16x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x64.size a ≤ S16x64.size a
  hwx0_4 : ∀ i : grid0.Coords, EltTy.bits .f32 = 32 ∨ (Rect.block (s := S16x64) S16x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x1024.size a ≤ S65536x1024.size a
  hwx0_5 : ∀ i : grid0.Coords, EltTy.bits .f32 = 32 ∨ (Rect.block (s := S65536x1024) S2048x1024.size (cc0_transform_5 i) (hinb0_5 i)).WholeWords (EltTy.packing .f32)

variable [Facts₀]

def dot_S1x32_S32x16_S1x16_1_0_0_1_n_n : DotDims S1x32 S32x16 S1x16 where
  lhsContracting := [1]
  rhsContracting := [0]
  lhsNonContracting := [0]
  rhsNonContracting := [1]
  lhsBatch := []
  rhsBatch := []
  wf := dot_S1x32_S32x16_S1x16_1_0_0_1_n_n_wf
def dot_S1x16_S16x512_S1x512_1_0_0_1_n_n : DotDims S1x16 S16x512 S1x512 where
  lhsContracting := [1]
  rhsContracting := [0]
  lhsNonContracting := [0]
  rhsNonContracting := [1]
  lhsBatch := []
  rhsBatch := []
  wf := dot_S1x16_S16x512_S1x512_1_0_0_1_n_n_wf
def dot_S32x16_S16x512_S32x512_1_0_0_1_n_n : DotDims S32x16 S16x512 S32x512 where
  lhsContracting := [1]
  rhsContracting := [0]
  lhsNonContracting := [0]
  rhsNonContracting := [1]
  lhsBatch := []
  rhsBatch := []
  wf := dot_S32x16_S16x512_S32x512_1_0_0_1_n_n_wf
def dot_S1024x16_S16x512_S1024x512_1_0_0_1_n_n : DotDims S1024x16 S16x512 S1024x512 where
  lhsContracting := [1]
  rhsContracting := [0]
  lhsNonContracting := [0]
  rhsNonContracting := [1]
  lhsBatch := []
  rhsBatch := []
  wf := dot_S1024x16_S16x512_S1024x512_1_0_0_1_n_n_wf
def dot_S32768x16_S16x64_S32768x64_1_0_0_1_n_n : DotDims S32768x16 S16x64 S32768x64 where
  lhsContracting := [1]
  rhsContracting := [0]
  lhsNonContracting := [0]
  rhsNonContracting := [1]
  lhsBatch := []
  rhsBatch := []
  wf := dot_S32768x16_S16x64_S32768x64_1_0_0_1_n_n_wf
def gather_S65536x1024_S8x2048x1_S8x2048x1024_2_0_n_n_0_2_11024 : GatherDims S65536x1024 S8x2048x1 S8x2048x1024 where
  offsetDims := [2]
  collapsedSliceDims := [0]
  operandBatchingDims := []
  startIndicesBatchingDims := []
  startIndexMap := [0]
  indexVectorDim := 2
  sliceSizes := ![1, 1024]
  wf := gather_S65536x1024_S8x2048x1_S8x2048x1024_2_0_n_n_0_2_11024_wf

abbrev win0_0 : Pipeline.Window sig grid0 :=
  Pipeline.Window.ofSpec (Memref.whole main_v0) S32x16.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S16x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S16x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S2048x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1x32x16 : Shape := ⟨3, ![1, 32, 16]⟩
abbrev S16x32x16 : Shape := ⟨3, ![16, 32, 16]⟩
abbrev S16x64x1 : Shape := ⟨3, ![16, 64, 1]⟩
abbrev S8x2048 : Shape := ⟨2, ![8, 2048]⟩
abbrev S32x16 : Shape := ⟨2, ![32, 16]⟩
abbrev S16x512 : Shape := ⟨2, ![16, 512]⟩
abbrev S32x512 : Shape := ⟨2, ![32, 512]⟩
abbrev S1x1024x16 : Shape := ⟨3, ![1, 1024, 16]⟩
abbrev S1024x16 : Shape := ⟨2, ![1024, 16]⟩
abbrev S1024x512 : Shape := ⟨2, ![1024, 512]⟩
abbrev S1x32768x16 : Shape := ⟨3, ![1, 32768, 16]⟩
abbrev S32768x16 : Shape := ⟨2, ![32768, 16]⟩
abbrev S32768x512 : Shape := ⟨2, ![32768, 512]⟩
abbrev S1x1048576x16 : Shape := ⟨3, ![1, 1048576, 16]⟩
abbrev S1048576x16 : Shape := ⟨2, ![1048576, 16]⟩
abbrev S16x64 : Shape := ⟨2, ![16, 64]⟩
abbrev S1048576x64 : Shape := ⟨2, ![1048576, 64]⟩
abbrev S1x67108864x1 : Shape := ⟨3, ![1, 67108864, 1]⟩
abbrev S65536x1024 : Shape := ⟨2, ![65536, 1024]⟩
abbrev S_ : Shape := ⟨0, ![]⟩
abbrev S8x2048x1 : Shape := ⟨3, ![8, 2048, 1]⟩
abbrev S1 : Shape := ⟨1, ![1]⟩
abbrev S1x1x1 : Shape := ⟨3, ![1, 1, 1]⟩
abbrev S8x2048x1024 : Shape := ⟨3, ![8, 2048, 1024]⟩

abbrev nBuf : Space → Nat
  | .hbm => 46
  | .vmem => 0
  | .smem => 0
  | _ => 0

abbrev bufTy : (tb : Table) → Fin (tcTables nBuf tb) → BufTy
  | .hbm, ⟨0, _⟩ => ⟨S1x32x16, .f32⟩
  | .hbm, ⟨1, _⟩ => ⟨S16x32x16, .f32⟩
  | .hbm, ⟨2, _⟩ => ⟨S16x32x16, .f32⟩
  | .hbm, ⟨3, _⟩ => ⟨S16x32x16, .f32⟩
  | .hbm, ⟨4, _⟩ => ⟨S16x64x1, .f32⟩
  | .hbm, ⟨5, _⟩ => ⟨S8x2048, .i32⟩
  | .hbm, ⟨6, _⟩ => ⟨S32x16, .f32⟩
  | .hbm, ⟨7, _⟩ => ⟨S16x512, .f32⟩
  | .hbm, ⟨8, _⟩ => ⟨S32x512, .f32⟩
  | .hbm, ⟨9, _⟩ => ⟨S1x1024x16, .f32⟩
  | .hbm, ⟨10, _⟩ => ⟨S1024x16, .f32⟩
  | .hbm, ⟨11, _⟩ => ⟨S16x512, .f32⟩
  | .hbm, ⟨12, _⟩ => ⟨S1024x512, .f32⟩
  | .hbm, ⟨13, _⟩ => ⟨S1x32768x16, .f32⟩
  | .hbm, ⟨14, _⟩ => ⟨S32768x16, .f32⟩
  | .hbm, ⟨15, _⟩ => ⟨S16x512, .f32⟩
  | .hbm, ⟨16, _⟩ => ⟨S32768x512, .f32⟩
  | .hbm, ⟨17, _⟩ => ⟨S1x1048576x16, .f32⟩
  | .hbm, ⟨18, _⟩ => ⟨S1048576x16, .f32⟩
  | .hbm, ⟨19, _⟩ => ⟨S16x64, .f32⟩
  | .hbm, ⟨20, _⟩ => ⟨S1048576x64, .f32⟩
  | .hbm, ⟨21, _⟩ => ⟨S1x67108864x1, .f32⟩
  | .hbm, ⟨22, _⟩ => ⟨S65536x1024, .f32⟩
  | .hbm, ⟨23, _⟩ => ⟨S_, .i32⟩
  | .hbm, ⟨24, _⟩ => ⟨S8x2048, .i32⟩
  | .hbm, ⟨25, _⟩ => ⟨S8x2048, .i1⟩
  | .hbm, ⟨26, _⟩ => ⟨S_, .i32⟩
  | .hbm, ⟨27, _⟩ => ⟨S8x2048, .i32⟩
  | .hbm, ⟨28, _⟩ => ⟨S8x2048, .i32⟩
  | .hbm, ⟨29, _⟩ => ⟨S8x2048, .i32⟩
  | .hbm, ⟨30, _⟩ => ⟨S8x2048x1, .i32⟩
  | .hbm, ⟨31, _⟩ => ⟨S1, .i32⟩
  | .hbm, ⟨32, _⟩ => ⟨S_, .i32⟩
  | .hbm, ⟨33, _⟩ => ⟨S8x2048x1, .i32⟩
  | .hbm, ⟨34, _⟩ => ⟨S8x2048x1, .i1⟩
  | .hbm, ⟨35, _⟩ => ⟨S1x1x1, .i32⟩
  | .hbm, ⟨36, _⟩ => ⟨S8x2048x1, .i32⟩
  | .hbm, ⟨37, _⟩ => ⟨S8x2048x1, .i1⟩
  | .hbm, ⟨38, _⟩ => ⟨S8x2048x1, .i1⟩
  | .hbm, ⟨39, _⟩ => ⟨S_, .i1⟩
  | .hbm, ⟨40, _⟩ => ⟨S8x2048, .i1⟩
  | .hbm, ⟨41, _⟩ => ⟨S8x2048x1024, .f32⟩
  | .hbm, ⟨42, _⟩ => ⟨S8x2048x1024, .i1⟩
  | .hbm, ⟨43, _⟩ => ⟨S_, .f32⟩
  | .hbm, ⟨44, _⟩ => ⟨S8x2048x1024, .f32⟩
  | .hbm, ⟨45, _⟩ => ⟨S8x2048x1024, .f32⟩
  | _, _ => ⟨S1x32x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_call0_cst : Ref sig .tc := ⟨.hbm, 43, rfl⟩
abbrev main_call0_v15 : Ref sig .tc := ⟨.hbm, 44, rfl⟩
abbrev main_v17 : Ref sig .tc := ⟨.hbm, 45, rfl⟩

abbrev nD : Nat := 1
abbrev τ : Topo := Topo.v7x

variable {F : FTy → Type} [FloatOps F]

class Facts₀ : Prop where
  shapeCasts_S1x32x16_S32x16 : S1x32x16.ShapeCasts S32x16
  shapeCasts_S16x32x16_S16x512 : S16x32x16.ShapeCasts S16x512
  shapeCasts_S32x512_S1x1024x16 : S32x512.ShapeCasts S1x1024x16
  shapeCasts_S1x1024x16_S1024x16 : S1x1024x16.ShapeCasts S1024x16
  shapeCasts_S1024x512_S1x32768x16 : S1024x512.ShapeCasts S1x32768x16
  shapeCasts_S1x32768x16_S32768x16 : S1x32768x16.ShapeCasts S32768x16
  shapeCasts_S32768x512_S1x1048576x16 : S32768x512.ShapeCasts S1x1048576x16
  shapeCasts_S1x1048576x16_S1048576x16 : S1x1048576x16.ShapeCasts S1048576x16
  shapeCasts_S16x64x1_S16x64 : S16x64x1.ShapeCasts S16x64
  shapeCasts_S1048576x64_S1x67108864x1 : S1048576x64.ShapeCasts S1x67108864x1
  shapeCasts_S1x67108864x1_S65536x1024 : S1x67108864x1.ShapeCasts S65536x1024
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S1_S1x1x1_2 : S1.BroadcastsInDim S1x1x1 (![2] : Fin 1 → Fin S1x1x1.rank)
  bcast_S1x1x1_S8x2048x1_0_1_2 : S1x1x1.BroadcastsInDim S8x2048x1 (![0, 1, 2] : Fin 3 → Fin S8x2048x1.rank)
  reducesTo_S8x2048x1_S8x2048_d2 : S8x2048x1.ReducesTo [2] S8x2048
  h_S_ : 0 < S_.numel
  bcast_S8x2048_S8x2048x1024_0_1 : S8x2048.BroadcastsInDim S8x2048x1024 (![0, 1] : Fin 2 → Fin S8x2048x1024.rank)
  bcast_S_S8x2048x1024 : S_.BroadcastsInDim S8x2048x1024 (![] : Fin 0 → Fin S8x2048x1024.rank)
  dot_S32x16_S16x512_S32x512_1_0_0_1_n_n_wf : DotDims.WF S32x16 S16x512 S32x512 [1] [0] [0] [1] [] []
  dot_S1024x16_S16x512_S1024x512_1_0_0_1_n_n_wf : DotDims.WF S1024x16 S16x512 S1024x512 [1] [0] [0] [1] [] []
  dot_S32768x16_S16x512_S32768x512_1_0_0_1_n_n_wf : DotDims.WF S32768x16 S16x512 S32768x512 [1] [0] [0] [1] [] []
  dot_S1048576x16_S16x64_S1048576x64_1_0_0_1_n_n_wf : DotDims.WF S1048576x16 S16x64 S1048576x64 [1] [0] [0] [1] [] []
  gather_S65536x1024_S8x2048x1_S8x2048x1024_2_0_n_n_0_2_11024_wf : GatherDims.WF S65536x1024 S8x2048x1 S8x2048x1024 [2] [0] [] [0] [] 2 ![1, 1024]

variable [Facts₀]

def dot_S32x16_S16x512_S32x512_1_0_0_1_n_n : DotDims S32x16 S16x512 S32x512 where
  lhsContracting := [1]
  rhsContracting := [0]
  lhsNonContracting := [0]
  rhsNonContracting := [1]
  lhsBatch := []
  rhsBatch := []
  wf := dot_S32x16_S16x512_S32x512_1_0_0_1_n_n_wf
def dot_S1024x16_S16x512_S1024x512_1_0_0_1_n_n : DotDims S1024x16 S16x512 S1024x512 where
  lhsContracting := [1]
  rhsContracting := [0]
  lhsNonContracting := [0]
  rhsNonContracting := [1]
  lhsBatch := []
  rhsBatch := []
  wf := dot_S1024x16_S16x512_S1024x512_1_0_0_1_n_n_wf
def dot_S32768x16_S16x512_S32768x512_1_0_0_1_n_n : DotDims S32768x16 S16x512 S32768x512 where
  lhsContracting := [1]
  rhsContracting := [0]
  lhsNonContracting := [0]
  rhsNonContracting := [1]
  lhsBatch := []
  rhsBatch := []
  wf := dot_S32768x16_S16x512_S32768x512_1_0_0_1_n_n_wf
def dot_S1048576x16_S16x64_S1048576x64_1_0_0_1_n_n : DotDims S1048576x16 S16x64 S1048576x64 where
  lhsContracting := [1]
  rhsContracting := [0]
  lhsNonContracting := [0]
  rhsNonContracting := [1]
  lhsBatch := []
  rhsBatch := []
  wf := dot_S1048576x16_S16x64_S1048576x64_1_0_0_1_n_n_wf
def gather_S65536x1024_S8x2048x1_S8x2048x1024_2_0_n_n_0_2_11024 : GatherDims S65536x1024 S8x2048x1 S8x2048x1024 where
  offsetDims := [2]
  collapsedSliceDims := [0]
  operandBatchingDims := []
  startIndicesBatchingDims := []
  startIndexMap := [0]
  indexVectorDim := 2
  sliceSizes := ![1, 1024]
  wf := gather_S65536x1024_S8x2048x1_S8x2048x1024_2_0_n_n_0_2_11024_wf

class Facts : Prop extends Facts₀ where

variable [Facts]
-- ==== Proof.RefStages.lean ====
/-
  The reference's host program, stage by stage, as named pure functions of its arguments.

  The reference rebuilds the whole tensor-train table by a chain of four matrix products, each followed by a
  row-major re-reading of the product as a taller matrix with sixteen columns: a [32,16] core times a [16,512]
  core is a [32,512] matrix, re-read as [1024,16]; times [16,512] is [1024,512], re-read as [32768,16]; times
  [16,512] is [32768,512], re-read as [1048576,16]; times [16,64] is [1048576,64], re-read as the [65536,1024]
  table. The result is the gather of the table's rows at the (wrapped, range-checked) indices: `take`.
-/
import proofs.«100464_j80994493268368_1_alg».proof.Proof.Gen.ReferenceIdeal

noncomputable section

namespace Cert.ReferenceIdeal.Stages

open Cert.ReferenceIdeal Cert.ReferenceIdeal.Facts₀ Idealize.ShloMosaic

variable {F : FTy → Type} [FloatOps F]

/-- First product: the [32,16] core by the [16,512] core. -/
def t2 (c0 : FVec F S32x16 .f32) (c1 : FVec F S16x512 .f32) : FVec F S32x512 .f32 :=
  Host.dotGeneral dot_S32x16_S16x512_S32x512_1_0_0_1_n_n none c0 c1
/-- A [32,512] matrix re-read row-major as [1024,16] (through [1,1024,16]). -/
def t4 (x : FVec F S32x512 .f32) : FVec F S1024x16 .f32 :=
  shapeCast S1024x16 (shapeCast S1x1024x16 x shapeCasts_S32x512_S1x1024x16) shapeCasts_S1x1024x16_S1024x16
/-- Second product. -/
def t6 (x : FVec F S1024x16 .f32) (c2 : FVec F S16x512 .f32) : FVec F S1024x512 .f32 :=
  Host.dotGeneral dot_S1024x16_S16x512_S1024x512_1_0_0_1_n_n none x c2
/-- A [1024,512] matrix re-read row-major as [32768,16] (through [1,32768,16]). -/
def t8 (x : FVec F S1024x512 .f32) : FVec F S32768x16 .f32 :=
  shapeCast S32768x16 (shapeCast S1x32768x16 x shapeCasts_S1024x512_S1x32768x16) shapeCasts_S1x32768x16_S32768x16
/-- Third product. -/
def t10 (x : FVec F S32768x16 .f32) (c3 : FVec F S16x512 .f32) : FVec F S32768x512 .f32 :=
  Host.dotGeneral dot_S32768x16_S16x512_S32768x512_1_0_0_1_n_n none x c3
/-- A [32768,512] matrix re-read row-major as [1048576,16] (through [1,1048576,16]). -/
def t12 (x : FVec F S32768x512 .f32) : FVec F S1048576x16 .f32 :=
  shapeCast S1048576x16 (shapeCast S1x1048576x16 x shapeCasts_S32768x512_S1x1048576x16) shapeCasts_S1x1048576x16_S1048576x16
/-- Fourth product: by the [16,64] core. -/
def t14 (x : FVec F S1048576x16 .f32) (c4 : FVec F S16x64 .f32) : FVec F S1048576x64 .f32 :=
  Host.dotGeneral dot_S1048576x16_S16x64_S1048576x64_1_0_0_1_n_n none x c4
/-- A [1048576,64] matrix re-read row-major as the [65536,1024] table (through [1,67108864,1]). -/
def t16 (x : FVec F S1048576x64 .f32) : FVec F S65536x1024 .f32 :=
  shapeCast S65536x1024 (shapeCast S1x67108864x1 x shapeCasts_S1048576x64_S1x67108864x1) shapeCasts_S1x67108864x1_S65536x1024

/-- The whole table from the five cores as matrices. -/
def table2 (c0 : FVec F S32x16 .f32) (c1 c2 c3 : FVec F S16x512 .f32) (c4 : FVec F S16x64 .f32) : FVec F S65536x1024 .f32 :=
  t16 (t14 (t12 (t10 (t8 (t6 (t4 (t2 c0 c1)) c2)) c3)) c4)

/-- The whole table from the five argument arrays: each core re-read as a matrix first. -/
def table (a0 : FVec F S1x32x16 .f32) (a1 a2 a3 : FVec F S16x32x16 .f32) (a4 : FVec F S16x64x1 .f32) : FVec F S65536x1024 .f32 :=
  table2 (shapeCast S32x16 a0 shapeCasts_S1x32x16_S32x16) (shapeCast S16x512 a1 shapeCasts_S16x32x16_S16x512)
    (shapeCast S16x512 a2 shapeCasts_S16x32x16_S16x512) (shapeCast S16x512 a3 shapeCasts_S16x32x16_S16x512)
    (shapeCast S16x64 a4 shapeCasts_S16x64x1_S16x64)

/-- The rows of a table at an array of indices: a negative index wraps by the table's height, the rows are gathered,
    and a row whose (wrapped) index is outside the table reads the fill value. -/
def take (T : FVec F S65536x1024 .f32) (idx : IVec S8x2048 32) : FVec F S8x2048x1024 .f32 :=
  let v0 : IVec S8x2048 32 := broadcastInDim S8x2048 ![] bcast_S_S8x2048 (constantI S_ 32 0#32)
  let v1 : IVec S8x2048 1 := cmpi .slt idx v0
  let v2 : IVec S8x2048 32 := broadcastInDim S8x2048 ![] bcast_S_S8x2048 (constantI S_ 32 65536#32)
  let v3 : IVec S8x2048 32 := addi idx v2
  let v4 : IVec S8x2048 32 := select v1 v3 idx
  let v5 : IVec S8x2048x1 32 := broadcastInDim S8x2048x1 ![0, 1] bcast_S8x2048_S8x2048x1_0_1 v4
  let v6 : IVec S8x2048x1 32 := broadcastInDim S8x2048x1 ![] bcast_S_S8x2048x1 (constantI S_ 32 0#32)
  let v7 : IVec S8x2048x1 1 := cmpi .sge v5 v6
  let v8 : IVec S1x1x1 32 := broadcastInDim S1x1x1 ![2] bcast_S1_S1x1x1_2 (constantI S1 32 65535#32)
  let v9 : IVec S8x2048x1 32 := broadcastInDim S8x2048x1 ![0, 1, 2] bcast_S1x1x1_S8x2048x1_0_1_2 v8
  let v10 : IVec S8x2048x1 1 := cmpi .sle v5 v9
  let v11 : IVec S8x2048x1 1 := andi v7 v10
  let v12 : IVec S8x2048 1 := Host.reduce IntOp.andi v11 (constantI S_ 1 1#1) reducesTo_S8x2048x1_S8x2048_d2 h_S_
  let v13 : FVec F S8x2048x1024 .f32 := Host.gather gather_S65536x1024_S8x2048x1_S8x2048x1024_2_0_n_n_0_2_11024 T v5
  let v14 : IVec S8x2048x1024 1 := broadcastInDim S8x2048x1024 ![0, 1] bcast_S8x2048_S8x2048x1024_0_1 v12
  let v15 : FVec F S8x2048x1024 .f32 := broadcastInDim S8x2048x1024 ![] bcast_S_S8x2048x1024 (constant S_ .f32 0x7FC00000#32)
  select v14 v13 v15

end Cert.ReferenceIdeal.Stages

end
-- ==== Proof.RefRun.lean ====
/-
  The reference's host program read back as one composed function of its arguments.

  The reference computes on the host only: five row-major re-readings of the argument arrays as matrices, four matrix
  products each followed by two re-readings of the product as a taller matrix of sixteen columns (the last one as the
  [65536,1024] table), and then the row gather: indices below zero wrapped by the table's height, the rows gathered,
  and every row whose index falls outside the table replaced by the fill value. Listed in order these are forty
  operations, each writing one buffer of its own from buffers written earlier or from the arguments. Hence every
  execution ends with the result buffer holding the composition of the forty functions applied to the arguments'
  initial contents — the gather `take` of the table `table` of the five cores at the index array — and with the six
  arguments unchanged, since no operation writes an argument.
-/
import proofs.«100464_j80994493268368_1_alg».proof.Proof.RefStages
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- The forty operations in order: seventeen of the table's construction (five re-readings of the arguments, four
    products, eight re-readings of products), then the twenty-three of the row gather. -/
abbrev ops : List (HloOp τ sig (Elt F)) :=
  [ reshape main_arg0 main_v0 rfl shapeCasts_S1x32x16_S32x16,
    reshape main_arg1 main_v1 rfl shapeCasts_S16x32x16_S16x512,
    binary main_v0 main_v1 main_v2 ((fun l r => Host.dotGeneral dot_S32x16_S16x512_S32x512_1_0_0_1_n_n none l r) : (⟨S32x16, .f32⟩ : BufTy).Contents (Elt F) → (⟨S16x512, .f32⟩ : BufTy).Contents (Elt F) → (⟨S32x512, .f32⟩ : BufTy).Contents (Elt F)),
    reshape main_v2 main_v3 rfl shapeCasts_S32x512_S1x1024x16,
    reshape main_v3 main_v4 rfl shapeCasts_S1x1024x16_S1024x16,
    reshape main_arg2 main_v5 rfl shapeCasts_S16x32x16_S16x512,
    binary main_v4 main_v5 main_v6 ((fun l r => Host.dotGeneral dot_S1024x16_S16x512_S1024x512_1_0_0_1_n_n none l r) : (⟨S1024x16, .f32⟩ : BufTy).Contents (Elt F) → (⟨S16x512, .f32⟩ : BufTy).Contents (Elt F) → (⟨S1024x512, .f32⟩ : BufTy).Contents (Elt F)),
    reshape main_v6 main_v7 rfl shapeCasts_S1024x512_S1x32768x16,
    reshape main_v7 main_v8 rfl shapeCasts_S1x32768x16_S32768x16,
    reshape main_arg3 main_v9 rfl shapeCasts_S16x32x16_S16x512,
    binary main_v8 main_v9 main_v10 ((fun l r => Host.dotGeneral dot_S32768x16_S16x512_S32768x512_1_0_0_1_n_n none l r) : (⟨S32768x16, .f32⟩ : BufTy).Contents (Elt F) → (⟨S16x512, .f32⟩ : BufTy).Contents (Elt F) → (⟨S32768x512, .f32⟩ : BufTy).Contents (Elt F)),
    reshape main_v10 main_v11 rfl shapeCasts_S32768x512_S1x1048576x16,
    reshape main_v11 main_v12 rfl shapeCasts_S1x1048576x16_S1048576x16,
    reshape main_arg4 main_v13 rfl shapeCasts_S16x64x1_S16x64,
    binary main_v12 main_v13 main_v14 ((fun l r => Host.dotGeneral dot_S1048576x16_S16x64_S1048576x64_1_0_0_1_n_n none l r) : (⟨S1048576x16, .f32⟩ : BufTy).Contents (Elt F) → (⟨S16x64, .f32⟩ : BufTy).Contents (Elt F) → (⟨S1048576x64, .f32⟩ : BufTy).Contents (Elt F)),
    reshape main_v14 main_v15 rfl shapeCasts_S1048576x64_S1x67108864x1,
    reshape main_v15 main_v16 rfl shapeCasts_S1x67108864x1_S65536x1024,
    TRef.nullary main_call0.c (constantI S_ 32 0#32),
    TRef.unary main_call0.c main_call0.v0 (broadcastInDim S8x2048 ![] bcast_S_S8x2048),
    TRef.binary (.of main_arg5) main_call0.v0 main_call0.v1 (cmpi .slt),
    TRef.nullary main_call0.c_0 (constantI S_ 32 65536#32),
    TRef.unary main_call0.c_0 main_call0.v2 (broadcastInDim S8x2048 ![] bcast_S_S8x2048),
    TRef.binary (.of main_arg5) main_call0.v2 main_call0.v3 addi,
    TRef.ternary main_call0.v1 main_call0.v3 (.of main_arg5) main_call0.call0.v0 select,
    TRef.unary main_call0.call0.v0 main_call0.v5 (broadcastInDim S8x2048x1 ![0, 1] bcast_S8x2048_S8x2048x1_0_1),
    TRef.nullary main_call0.c_1 (constantI S1 32 65535#32),
    TRef.nullary main_call0.c_2 (constantI S_ 32 0#32),
    TRef.unary main_call0.c_2 main_call0.v6 (broadcastInDim S8x2048x1 ![] bcast_S_S8x2048x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S8x2048x1 ![0, 1, 2] bcast_S1x1x1_S8x2048x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S8x2048x1_S8x2048_d2 h_S_),
    TRef.binary (.of main_v16) main_call0.v5 main_call0.v13 (fun x i => Host.gather gather_S65536x1024_S8x2048x1_S8x2048x1024_2_0_n_n_0_2_11024 x i),
    TRef.unary main_call0.v12 main_call0.v14 (broadcastInDim S8x2048x1024 ![0, 1] bcast_S8x2048_S8x2048x1024_0_1),
    TRef.nullary main_call0.cst (constant S_ .f32 0x7FC00000#32),
    TRef.unary main_call0.cst main_call0.v15 (broadcastInDim S8x2048x1024 ![] bcast_S_S8x2048x1024),
    TRef.ternary main_call0.v14 main_call0.v13 main_call0.v15 main_call0.v16 select ]

set_option maxRecDepth 1024 in
/-- The program is that straight line: the two outlined functions unfolded at their calls, both sides are one chain of
    single steps once sequencing is re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches buffers of the core only. -/
theorem ops_sub : (ops : List (HloOp τ sig (Elt F))).Forall fun op => op.bufs ⊆ tcRefs τ sig :=
  ⟨reshape_bufs_sub .., reshape_bufs_sub .., binary_bufs_sub .., reshape_bufs_sub .., reshape_bufs_sub .., reshape_bufs_sub .., binary_bufs_sub .., reshape_bufs_sub ..,
    reshape_bufs_sub .., reshape_bufs_sub .., binary_bufs_sub .., reshape_bufs_sub .., reshape_bufs_sub .., reshape_bufs_sub .., binary_bufs_sub .., reshape_bufs_sub ..,
    reshape_bufs_sub .., nullary_bufs_sub .., unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub .., unary_bufs_sub .., binary_bufs_sub ..,
    binary_bufs_sub .., nullary_bufs_sub .., binary_bufs_sub .., binary_bufs_sub .., unary_bufs_sub .., nullary_bufs_sub .., unary_bufs_sub .., ternary_bufs_sub ..⟩

attribute [local irreducible] Host.gather Host.reduce shapeCast in
/-- The forty operations composed, read at the result buffer, are the gather of the table of the five cores at the index
    array: each operation's result is its function of what its operands held, an operand's contents being its own
    writer's result or, for an argument, the initial contents; the row-major re-readings and the gather are compared
    as wholes, never opened. -/
theorem out_eq (V : Valuation τ sig (Elt F)) :
    after ops V (main_v17 : DevRef τ sig)
      = Stages.take (Stages.table (V (main_arg0 : DevRef τ sig)) (V (main_arg1 : DevRef τ sig)) (V (main_arg2 : DevRef τ sig)) (V (main_arg3 : DevRef τ sig)) (V (main_arg4 : DevRef τ sig))) (V (main_arg5 : DevRef τ sig)) := by
  after_results_simp
  simp only [TRef.ofBuf, TRef.toBuf, cast_cast, cast_eq]
  rfl

/-! No operation writes an argument: each argument buffer holds at the end what it held at the start. -/

theorem arg0_eq (V : Valuation τ sig (Elt F)) :
    after ops V (main_arg0 : DevRef τ sig) = V (main_arg0 : DevRef τ sig) := by
  after_results_simp
theorem arg1_eq (V : Valuation τ sig (Elt F)) :
    after ops V (main_arg1 : DevRef τ sig) = V (main_arg1 : DevRef τ sig) := by
  after_results_simp
theorem arg2_eq (V : Valuation τ sig (Elt F)) :
    after ops V (main_arg2 : DevRef τ sig) = V (main_arg2 : DevRef τ sig) := by
  after_results_simp
theorem arg3_eq (V : Valuation τ sig (Elt F)) :
    after ops V (main_arg3 : DevRef τ sig) = V (main_arg3 : DevRef τ sig) := by
  after_results_simp
theorem arg4_eq (V : Valuation τ sig (Elt F)) :
    after ops V (main_arg4 : DevRef τ sig) = V (main_arg4 : DevRef τ sig) := by
  after_results_simp
theorem arg5_eq (V : Valuation τ sig (Elt F)) :
    after ops V (main_arg5 : DevRef τ sig) = V (main_arg5 : DevRef τ sig) := by
  after_results_simp

/-- On every device, for any float values, from any memory with zero counters: every weakly fair execution of the
    reference terminates with the result buffer at the gather of the table of the five cores at the index array,
    and the six arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v17)
          = Stages.take (Stages.table (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v17).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_seq scopedRefs_eq scopedSems_eq defs main (fun _ => ops) main_eq (fun _ => ops_sub) m ρ)

end Cert.ReferenceIdeal.RefRun

end
-- ==== Proof.PayStmt.lean ====
/-
  The one equation that joins the two programs, as a statement: at grid point `p` the kernel's body computes, from the
  five cores as matrices, exactly rows `2048 p … 2048 p + 2047` of the reference's table.
-/
import proofs.«100464_j80994493268368_1_alg».proof.Proof.RefStages
import proofs.«100464_j80994493268368_1_alg».proof.Proof.Gen.KernelIdeal.Skeleton
import Idealize.ShloMosaic.Lib.ValueIdx

noncomputable section

namespace Cert.Bridge

open Idealize.ShloMosaic Idealize.ShloMosaic.ValueIdx

/-- Row `r` of the `p`-th block of 2048 rows of the table. -/
def rowOf (p : Fin 32) (r : Fin 2048) : Fin 65536 := ⟨2048 * p.val + r.val, by have := p.isLt; have := r.isLt; omega⟩

theorem rowOf_val (p : Fin 32) (r : Fin 2048) : (rowOf p r).val = 2048 * p.val + r.val := rfl

/-- The body's stored value at grid coordinate `p`, entry `(r, C)`, is the table's entry `(2048 p + r, C)`. -/
def PayEq : Prop :=
  ∀ (i : Cert.KernelIdeal.grid0.Coords) (p : Fin 32), (i 0).val = p.val →
    ∀ (x0 : FVec Ideal Cert.KernelIdeal.S32x16 .f32) (x1 x2 x3 : FVec Ideal Cert.KernelIdeal.S16x512 .f32)
      (x4 : FVec Ideal Cert.KernelIdeal.S16x64 .f32) (r : Fin 2048) (C : Fin 1024),
      Cert.KernelIdeal.Gen.k0_pay1 (F := Ideal) i x0 x1 x2 x3 x4 (ix2 r C)
        = Cert.ReferenceIdeal.Stages.table2 (F := Ideal) x0 x1 x2 x3 x4 (ix2 (rowOf p r) C)

end Cert.Bridge

end
-- ==== Proof.Levels.lean ====
/-
  The kernel's stored block is a block of the reference's table.

  Write `p` for the grid coordinate. The kernel multiplies the one-hot row `e_p` by the [32,16] core — that is row `p`
  of the core, since `1 · x = x` and `0 · x = 0` on the extended reals — and then runs the same four products as the
  reference, each on one block of rows of the reference's operand: if a matrix `X` agrees with rows
  `o·p … o·p + h − 1` of `Y`, then `X · W` agrees with the same rows of `Y · W` (both are the sum over the sixteen
  contraction positions of the same products), and `X` re-read row-major with sixteen columns agrees with rows
  `32·o·p … ` of `Y` re-read the same way, because a row-major position inside the block and the block's own offset
  add up: `(32 o p + a)·16 + b = 512·(o p) + (16 a + b)`.
-/
import proofs.«100464_j80994493268368_1_alg».proof.Proof.PayStmt
import Idealize.ShloMosaic.Lib.ValueIdx
import Idealize.ShloMosaic.Lib.Pipeline.Value
import Idealize.ShloMosaic.PureOps.Ideal.Laws

noncomputable section

open scoped BigOperators

namespace Cert.Bridge

open Idealize.ShloMosaic Idealize.ShloMosaic.ValueIdx

/-- A matrix shape. -/
abbrev M2 (a b : Nat) : Shape := ⟨2, ![a, b]⟩

/-! ## Row-major positions -/

theorem rm2 {n0 n1 : Nat} (a : Fin n0) (b : Fin n1) : ((M2 n0 n1).rowMajor (ix2 a b)).val = a.val * n1 + b.val :=
  Shape.rowMajor_val_two _

/-- A re-reading of a matrix as another matrix, at an entry: the entry with the same row-major position. -/
theorem cast22 {n0 n1 m0 m1 : Nat} {α : Type} (x : (M2 n0 n1).Idx → α) (h : (M2 n0 n1).ShapeCasts (M2 m0 m1))
    (a' : Fin m0) (b' : Fin m1) (a : Fin n0) (b : Fin n1) (hk : a.val * n1 + b.val = a'.val * m1 + b'.val) :
    shapeCast (M2 m0 m1) x h (ix2 a' b') = x (ix2 a b) :=
  shapeCast_apply x h _ _ ((rm2 a b).trans (hk.trans (rm2 a' b').symm))

/-- Two re-readings in a row are one: only the row-major position matters. -/
theorem shapeCast_shapeCast_apply {s t u : Shape} {α : Type} (x : s.Idx → α) (h1 : s.ShapeCasts t) (h2 : t.ShapeCasts u)
    (j : u.Idx) (k : s.Idx) (hk : (s.rowMajor k).val = (u.rowMajor j).val) :
    shapeCast u (shapeCast t x h1) h2 j = x k := by
  unfold shapeCast
  refine congrArg x ?_
  rw [Shape.reshapeEquiv_reshapeEquiv]
  exact Shape.reshapeEquiv_eq_of_rowMajor _ hk

/-- The same through any intermediate shape, between two matrices. -/
theorem cast2x2 {n0 n1 m0 m1 : Nat} {t : Shape} {α : Type} (x : (M2 n0 n1).Idx → α) (h1 : (M2 n0 n1).ShapeCasts t)
    (h2 : t.ShapeCasts (M2 m0 m1)) (a' : Fin m0) (b' : Fin m1) (a : Fin n0) (b : Fin n1)
    (hk : a.val * n1 + b.val = a'.val * m1 + b'.val) :
    shapeCast (M2 m0 m1) (shapeCast t x h1) h2 (ix2 a' b') = x (ix2 a b) :=
  shapeCast_shapeCast_apply x h1 h2 _ _ ((rm2 a b).trans (hk.trans (rm2 a' b').symm))

/-! ## A plain matrix product, on the vector unit and on the host, as a sum over the contraction position -/

theorem plain_sum {M K N : Nat} (lhs : FVec Ideal (M2 M K) .f32) (rhs : FVec Ideal (M2 K N) .f32) (a : Fin M) (b : Fin N) :
    ∑ k : (DotDims.plain M K N).contr.Idx,
        lhs ((DotDims.plain M K N).lhsIdx (ix2 a b) k) * rhs ((DotDims.plain M K N).rhsIdx (ix2 a b) k)
      = ∑ k : Fin K, lhs (ix2 a k) * rhs (ix2 k b) := by
  rw [← Equiv.sum_comp (contrEquiv1 (DotDims.plain M K N) K rfl rfl).symm]
  refine Finset.sum_congr rfl fun k _ => ?_
  have hl : (DotDims.plain M K N).lhsIdx (ix2 a b) ((contrEquiv1 (DotDims.plain M K N) K rfl rfl).symm k) = ix2 a k := by
    funext ax
    match ax with
    | ⟨0, _⟩ => exact Fin.ext rfl
    | ⟨1, _⟩ =>
      refine Fin.ext ?_
      exact ((DotDims.plain M K N).lhsIdx_val_of_single rfl (ix2 a b) _).trans (contrEquiv1_symm_val _ K rfl rfl k)
  have hr : (DotDims.plain M K N).rhsIdx (ix2 a b) ((contrEquiv1 (DotDims.plain M K N) K rfl rfl).symm k) = ix2 k b := by
    funext ax
    match ax with
    | ⟨0, _⟩ =>
      refine Fin.ext ?_
      exact ((DotDims.plain M K N).rhsIdx_val_of_single rfl (ix2 a b) _).trans (contrEquiv1_symm_val _ K rfl rfl k)
    | ⟨1, _⟩ => exact Fin.ext rfl
  rw [hl, hr]

/-- The vector unit's product into a zero accumulator. -/
theorem kmm_apply {M K N : Nat} (d : DotDims (M2 M K) (M2 K N) (M2 M N)) (hd : d = DotDims.plain M K N)
    (lhs : FVec Ideal (M2 M K) .f32) (rhs : FVec Ideal (M2 K N) .f32) (a : Fin M) (b : Fin N) :
    matmul d none lhs rhs (constant (M2 M N) .f32 0x00000000#32) (ix2 a b) = ∑ k : Fin K, lhs (ix2 a k) * rhs (ix2 k b) := by
  subst hd
  exact (Ideal.matmul_constant_zero_apply _ none lhs rhs (ix2 a b)).trans (plain_sum lhs rhs a b)

/-- The host's product. -/
theorem hmm_apply {M K N : Nat} (d : DotDims (M2 M K) (M2 K N) (M2 M N)) (hd : d = DotDims.plain M K N)
    (lhs : FVec Ideal (M2 M K) .f32) (rhs : FVec Ideal (M2 K N) .f32) (a : Fin M) (b : Fin N) :
    Host.dotGeneral d none lhs rhs (ix2 a b) = ∑ k : Fin K, lhs (ix2 a k) * rhs (ix2 k b) := by
  subst hd
  exact (Ideal.dotGeneral_apply _ none .single lhs rhs (ix2 a b)).trans (plain_sum lhs rhs a b)

/-- A block of rows times a matrix is the same block of rows of the product: if `X` is rows `ρ a` of `Y` and the right
    factors agree, the vector unit's `X · W` is rows `ρ a` of the host's `Y · W`. -/
theorem mm_rows {Ak Ar N : Nat} (dk : DotDims (M2 Ak 16) (M2 16 N) (M2 Ak N)) (hdk : dk = DotDims.plain Ak 16 N)
    (dr : DotDims (M2 Ar 16) (M2 16 N) (M2 Ar N)) (hdr : dr = DotDims.plain Ar 16 N)
    (X : FVec Ideal (M2 Ak 16) .f32) (Y : FVec Ideal (M2 Ar 16) .f32) (Wk Wr : FVec Ideal (M2 16 N) .f32) (hW : Wk = Wr)
    (ρ : Fin Ak → Fin Ar) (H : ∀ a k, X (ix2 a k) = Y (ix2 (ρ a) k)) (a : Fin Ak) (b : Fin N) :
    matmul dk none X Wk (constant (M2 Ak N) .f32 0x00000000#32) (ix2 a b) = Host.dotGeneral dr none Y Wr (ix2 (ρ a) b) := by
  subst hW
  rw [kmm_apply dk hdk, hmm_apply dr hdr]
  exact Finset.sum_congr rfl fun k _ => by rw [H a k]

/-! ## The one-hot row -/

theorem ofNat32_inj {k p : ℕ} (hk : k < 32) (hp : p < 32) (h : BitVec.ofNat 32 k = BitVec.ofNat 32 p) : k = p := by
  have := congrArg BitVec.toNat h
  simp only [BitVec.toNat_ofNat] at this
  omega

/-- The comparison of two small coordinates, widened and read as a float: `1` where they agree, `0` elsewhere. -/
theorem onehot_eq (k p : ℕ) (hk : k < 32) (hp : p < 32) :
    ((((IntOp.cmpi .eq (BitVec.ofNat 32 k) (BitVec.ofNat 32 p)).setWidth 32).toInt : ℝ) : EReal) = if k = p then 1 else 0 := by
  by_cases h : k = p
  · subst h
    have e : IntOp.cmpi .eq (BitVec.ofNat 32 k) (BitVec.ofNat 32 k) = 1#1 := by simp [IntOp.cmpi]
    rw [e, if_pos rfl]
    have e' : ((1#1 : BitVec 1).setWidth 32).toInt = 1 := by decide
    rw [e']; simp
  · have e : IntOp.cmpi .eq (BitVec.ofNat 32 k) (BitVec.ofNat 32 p) = 0#1 := by
      have hne : BitVec.ofNat 32 k ≠ BitVec.ofNat 32 p := fun h' => h (ofNat32_inj hk hp h')
      have hb : (BitVec.ofNat 32 k == BitVec.ofNat 32 p) = false := beq_eq_false_iff_ne.mpr hne
      simp only [IntOp.cmpi, hb]
      rfl
    rw [e, if_neg h]
    have e' : ((0#1 : BitVec 1).setWidth 32).toInt = 0 := by decide
    rw [e']; simp

/-- A sum against a one-hot row picks one term. -/
theorem sum_onehot (p : Fin 32) (f : Fin 32 → EReal) :
    ∑ k : Fin 32, (if k.val = p.val then (1 : EReal) else 0) * f k = f p := by
  rw [Finset.sum_eq_single p]
  · rw [if_pos rfl, one_mul]
  · intro k _ hk
    rw [if_neg (fun h => hk (Fin.ext h)), zero_mul]
  · intro h; exact absurd (Finset.mem_univ p) h

/-! ## The levels: each of the kernel's values is a block of rows of the reference's -/

section Levels

open Cert.ReferenceIdeal.Stages

variable (p : Fin 32)

/-- Row `a` of block `p` of a matrix of 32 blocks of 32 rows, … -/
def row32 (a : Fin 32) : Fin 1024 := ⟨32 * p.val + a.val, by have := p.isLt; have := a.isLt; omega⟩
/-- … of 1024 rows, … -/
def row1024 (a : Fin 1024) : Fin 32768 := ⟨1024 * p.val + a.val, by have := p.isLt; have := a.isLt; omega⟩
/-- … and of 32768 rows. -/
def row32768 (a : Fin 32768) : Fin 1048576 := ⟨32768 * p.val + a.val, by have := p.isLt; have := a.isLt; omega⟩

/-- The one-hot row times the first core is the core's row `p`. -/
theorem lvl1 (i : Cert.KernelIdeal.grid0.Coords) (hi : (i 0).val = p.val) (x0 : FVec Ideal (M2 32 16) .f32)
    (h1 : (M2 1 32).Iotas .tc 32 [1]) (h2 : 1 < 32) (h3 : (M2 32 16).ShapeCasts (M2 32 16)) (j : Fin 16) :
    matmul Cert.KernelIdeal.dot_S1x32_S32x16_S1x16_1_0_0_1_n_n none
        (sitofp (F := Ideal) .f32 (extui 32 (cmpi .eq (iota .tc (M2 1 32) 32 [1] h1) (broadcast (M2 1 32) (BitVec.ofNat 32 (i 0).val))) h2))
        (shapeCast (M2 32 16) x0 h3) (constant (M2 1 16) .f32 0x00000000#32) (ix2 0 j)
      = x0 (ix2 p j) := by
  refine (kmm_apply Cert.KernelIdeal.dot_S1x32_S32x16_S1x16_1_0_0_1_n_n rfl _ _ 0 j).trans ?_
  rw [shapeCast_self]
  have e : ∀ k : Fin 32, (sitofp (F := Ideal) .f32 (extui 32 (cmpi .eq (iota .tc (M2 1 32) 32 [1] h1)
      (broadcast (M2 1 32) (BitVec.ofNat 32 (i 0).val))) h2)) (ix2 0 k) = if k.val = p.val then 1 else 0 := by
    intro k
    show ((((IntOp.cmpi .eq (iota .tc (M2 1 32) 32 [1] h1 (ix2 0 k)) (BitVec.ofNat 32 (i 0).val)).setWidth 32).toInt : ℝ) : EReal) = _
    rw [iota_single_apply, hi]
    exact onehot_eq k.val p.val k.isLt p.isLt
  simp only [e]
  exact sum_onehot p (fun k => x0 (ix2 k j))

/-- That row times the second core is row `p` of the reference's first product. -/
theorem lvl2 (x0 : FVec Ideal (M2 32 16) .f32) (x1 : FVec Ideal (M2 16 512) .f32) (A : FVec Ideal (M2 1 16) .f32)
    (hs : (M2 16 512).ShapeCasts (M2 16 512)) (H : ∀ k : Fin 16, A (ix2 0 k) = x0 (ix2 p k)) (c : Fin 512) :
    matmul Cert.KernelIdeal.dot_S1x16_S16x512_S1x512_1_0_0_1_n_n none A (shapeCast (M2 16 512) x1 hs)
        (constant (M2 1 512) .f32 0x00000000#32) (ix2 0 c) = t2 x0 x1 (ix2 p c) :=
  mm_rows Cert.KernelIdeal.dot_S1x16_S16x512_S1x512_1_0_0_1_n_n rfl Cert.ReferenceIdeal.dot_S32x16_S16x512_S32x512_1_0_0_1_n_n rfl
    A x0 _ x1 (shapeCast_self x1 hs) (fun _ => p) (fun a k => by obtain rfl : a = 0 := Subsingleton.elim _ _; exact H k) 0 c

/-- The [1,512] row re-read as [32,16] is rows `32 p …` of the [32,512] product re-read as [1024,16]. -/
theorem lvl3 (X : FVec Ideal (M2 1 512) .f32) (Y : FVec Ideal (M2 32 512) .f32) (h : (M2 1 512).ShapeCasts (M2 32 16))
    (H : ∀ c : Fin 512, X (ix2 0 c) = Y (ix2 p c)) (a : Fin 32) (b : Fin 16) :
    shapeCast (M2 32 16) X h (ix2 a b) = t4 Y (ix2 (row32 p a) b) := by
  have hb := b.isLt; have ha := a.isLt; have hp := p.isLt
  refine (cast22 X h a b 0 ⟨16 * a.val + b.val, by omega⟩ (by show 0 * 512 + (16 * a.val + b.val) = a.val * 16 + b.val; omega)).trans ?_
  refine (H _).trans (Eq.symm ?_)
  exact cast2x2 Y _ _ (row32 p a) b p ⟨16 * a.val + b.val, by omega⟩
    (by show p.val * 512 + (16 * a.val + b.val) = (32 * p.val + a.val) * 16 + b.val; omega)

theorem lvl4 (X : FVec Ideal (M2 32 16) .f32) (Y : FVec Ideal (M2 1024 16) .f32) (x2 : FVec Ideal (M2 16 512) .f32)
    (hs : (M2 16 512).ShapeCasts (M2 16 512)) (H : ∀ a k, X (ix2 a k) = Y (ix2 (row32 p a) k)) (a : Fin 32) (c : Fin 512) :
    matmul Cert.KernelIdeal.dot_S32x16_S16x512_S32x512_1_0_0_1_n_n none X (shapeCast (M2 16 512) x2 hs)
        (constant (M2 32 512) .f32 0x00000000#32) (ix2 a c) = t6 Y x2 (ix2 (row32 p a) c) :=
  mm_rows Cert.KernelIdeal.dot_S32x16_S16x512_S32x512_1_0_0_1_n_n rfl Cert.ReferenceIdeal.dot_S1024x16_S16x512_S1024x512_1_0_0_1_n_n rfl
    X Y _ x2 (shapeCast_self x2 hs) (row32 p) H a c

theorem lvl5 (X : FVec Ideal (M2 32 512) .f32) (Y : FVec Ideal (M2 1024 512) .f32) (h : (M2 32 512).ShapeCasts (M2 1024 16))
    (H : ∀ a c, X (ix2 a c) = Y (ix2 (row32 p a) c)) (a' : Fin 1024) (b : Fin 16) :
    shapeCast (M2 1024 16) X h (ix2 a' b) = t8 Y (ix2 (row1024 p a') b) := by
  have hb := b.isLt; have ha := a'.isLt; have hp := p.isLt
  refine (cast22 X h a' b ⟨(16 * a'.val + b.val) / 512, by omega⟩ ⟨(16 * a'.val + b.val) % 512, by omega⟩
    (by show (16 * a'.val + b.val) / 512 * 512 + (16 * a'.val + b.val) % 512 = a'.val * 16 + b.val; omega)).trans ?_
  refine (H _ _).trans (Eq.symm ?_)
  exact cast2x2 Y _ _ (row1024 p a') b (row32 p ⟨(16 * a'.val + b.val) / 512, by omega⟩) ⟨(16 * a'.val + b.val) % 512, by omega⟩
    (by show (32 * p.val + (16 * a'.val + b.val) / 512) * 512 + (16 * a'.val + b.val) % 512 = (1024 * p.val + a'.val) * 16 + b.val; omega)

theorem lvl6 (X : FVec Ideal (M2 1024 16) .f32) (Y : FVec Ideal (M2 32768 16) .f32) (x3 : FVec Ideal (M2 16 512) .f32)
    (hs : (M2 16 512).ShapeCasts (M2 16 512)) (H : ∀ a k, X (ix2 a k) = Y (ix2 (row1024 p a) k)) (a : Fin 1024) (c : Fin 512) :
    matmul Cert.KernelIdeal.dot_S1024x16_S16x512_S1024x512_1_0_0_1_n_n none X (shapeCast (M2 16 512) x3 hs)
        (constant (M2 1024 512) .f32 0x00000000#32) (ix2 a c) = t10 Y x3 (ix2 (row1024 p a) c) :=
  mm_rows Cert.KernelIdeal.dot_S1024x16_S16x512_S1024x512_1_0_0_1_n_n rfl Cert.ReferenceIdeal.dot_S32768x16_S16x512_S32768x512_1_0_0_1_n_n rfl
    X Y _ x3 (shapeCast_self x3 hs) (row1024 p) H a c

theorem lvl7 (X : FVec Ideal (M2 1024 512) .f32) (Y : FVec Ideal (M2 32768 512) .f32) (h : (M2 1024 512).ShapeCasts (M2 32768 16))
    (H : ∀ a c, X (ix2 a c) = Y (ix2 (row1024 p a) c)) (y : Fin 32768) (b : Fin 16) :
    shapeCast (M2 32768 16) X h (ix2 y b) = t12 Y (ix2 (row32768 p y) b) := by
  have hb := b.isLt; have hy := y.isLt; have hp := p.isLt
  refine (cast22 X h y b ⟨(16 * y.val + b.val) / 512, by omega⟩ ⟨(16 * y.val + b.val) % 512, by omega⟩
    (by show (16 * y.val + b.val) / 512 * 512 + (16 * y.val + b.val) % 512 = y.val * 16 + b.val; omega)).trans ?_
  refine (H _ _).trans (Eq.symm ?_)
  exact cast2x2 Y _ _ (row32768 p y) b (row1024 p ⟨(16 * y.val + b.val) / 512, by omega⟩) ⟨(16 * y.val + b.val) % 512, by omega⟩
    (by show (1024 * p.val + (16 * y.val + b.val) / 512) * 512 + (16 * y.val + b.val) % 512 = (32768 * p.val + y.val) * 16 + b.val; omega)

theorem lvl8 (X : FVec Ideal (M2 32768 16) .f32) (Y : FVec Ideal (M2 1048576 16) .f32) (x4 : FVec Ideal (M2 16 64) .f32)
    (hs : (M2 16 64).ShapeCasts (M2 16 64)) (H : ∀ a k, X (ix2 a k) = Y (ix2 (row32768 p a) k)) (a : Fin 32768) (d : Fin 64) :
    matmul Cert.KernelIdeal.dot_S32768x16_S16x64_S32768x64_1_0_0_1_n_n none X (shapeCast (M2 16 64) x4 hs)
        (constant (M2 32768 64) .f32 0x00000000#32) (ix2 a d) = t14 Y x4 (ix2 (row32768 p a) d) :=
  mm_rows Cert.KernelIdeal.dot_S32768x16_S16x64_S32768x64_1_0_0_1_n_n rfl Cert.ReferenceIdeal.dot_S1048576x16_S16x64_S1048576x64_1_0_0_1_n_n rfl
    X Y _ x4 (shapeCast_self x4 hs) (row32768 p) H a d

theorem lvl9 (X : FVec Ideal (M2 32768 64) .f32) (Y : FVec Ideal (M2 1048576 64) .f32) (h : (M2 32768 64).ShapeCasts (M2 2048 1024))
    (H : ∀ a d, X (ix2 a d) = Y (ix2 (row32768 p a) d)) (r : Fin 2048) (C : Fin 1024) :
    shapeCast (M2 2048 1024) X h (ix2 r C) = t16 Y (ix2 (rowOf p r) C) := by
  have hC := C.isLt; have hr := r.isLt; have hp := p.isLt
  refine (cast22 X h r C ⟨(1024 * r.val + C.val) / 64, by omega⟩ ⟨(1024 * r.val + C.val) % 64, by omega⟩
    (by show (1024 * r.val + C.val) / 64 * 64 + (1024 * r.val + C.val) % 64 = r.val * 1024 + C.val; omega)).trans ?_
  refine (H _ _).trans (Eq.symm ?_)
  exact cast2x2 Y _ _ (rowOf p r) C (row32768 p ⟨(1024 * r.val + C.val) / 64, by omega⟩) ⟨(1024 * r.val + C.val) % 64, by omega⟩
    (by show (32768 * p.val + (1024 * r.val + C.val) / 64) * 64 + (1024 * r.val + C.val) % 64 = (2048 * p.val + r.val) * 1024 + C.val; omega)

end Levels

/-! ## The payload -/

/-- The body's stored value at grid coordinate `p` is rows `2048 p …` of the table: the nine levels in a row. -/
theorem pay_eq : PayEq := by
  intro i p hi x0 x1 x2 x3 x4 r C
  unfold Cert.KernelIdeal.Gen.k0_pay1 Cert.ReferenceIdeal.Stages.table2
  exact lvl9 p _ _ _ (fun a d => lvl8 p _ _ x4 _ (fun a k => lvl7 p _ _ _ (fun a c => lvl6 p _ _ x3 _ (fun a k =>
    lvl5 p _ _ _ (fun a c => lvl4 p _ _ x2 _ (fun a k => lvl3 p _ _ _ (fun c => lvl2 p x0 x1 _ _ (fun k =>
      lvl1 p i hi x0 _ _ _ k) c) a k) a c) a k) a c) a k) a d) r C

end Cert.Bridge

end
-- ==== Proof.KernelValue.lean ====
/-
  The kernel program's run with its result buffer named.

  The grid has 32 points. Each input window's block is its whole array (block index (0, 0), block size the array's
  size), so at every point the body reads the five cores as matrices: each argument array re-read row-major as a
  matrix by the reshapes before the grid. The output window's block at point t is rows 2048 t … 2048 t + 2047 of the
  [65536, 1024] table, all 1024 columns: the block's entry (r, C) sits at the table's entry (2048 t + r, C). Given
  that the body's stored value at point t, entry (r, C), is the reference table's entry (2048 t + r, C)
  (`Cert.Bridge.PayEq`, a hypothesis here), what point t writes back is block t of the reference's table. Row R of
  the table lies in the block of point R / 2048, so the 32 blocks tile the table, and after the grid the table's array
  holds the reference's table of the five cores. The operations after the grid are the reference's gather (a negative
  index wrapped by the table's height, the rows gathered, a row out of range filled) over the same shapes, reading
  that table and the index argument as launched. So the result buffer ends at the reference's gather of the
  reference's table of the five argument arrays, and no argument is written.
-/
import proofs.«100464_j80994493268368_1_alg».proof.Proof.FrameKernelIdeal
import proofs.«100464_j80994493268368_1_alg».proof.Proof.PayStmt
import Idealize.ShloMosaic.Lib.Pipeline.Value
import Idealize.ShloMosaic.Lib.ValueIdx
import Idealize.ShloMosaic.Lib.StableHlo.Run

noncomputable section

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.ValueIdx
open Cert.ReferenceIdeal (Stages.table Stages.table2 Stages.take)

variable (m : (ℓ : Loc nD τ sig) → Buf (Elt Ideal) ℓ) (ρ : Dev nD → PrngReg)

/-- The zero offsets of a whole-block access, however they are spelt. -/
theorem hz : (![0, 0] : Fin 2 → Nat) = fun _ => 0 := funext fun a => by fin_cases a <;> rfl

/-! ## The five cores as the grid finds them: each argument re-read as a matrix -/

theorem V_v0 (c : Dev nD) : (GenP.V m c main_v0 : S32x16.Idx → EReal)
    = shapeCast S32x16 (m ((c.tc : Thread nD τ).loc main_arg0)) shapeCasts_S1x32x16_S32x16 := by
  show StableHlo.after hostOps0 (fun b => m (c, b)) (Proc.devRef .tc main_v0) = _
  after_results
  rfl
theorem V_v1 (c : Dev nD) : (GenP.V m c main_v1 : S16x512.Idx → EReal)
    = shapeCast S16x512 (m ((c.tc : Thread nD τ).loc main_arg1)) shapeCasts_S16x32x16_S16x512 := by
  show StableHlo.after hostOps0 (fun b => m (c, b)) (Proc.devRef .tc main_v1) = _
  after_results
  rfl
theorem V_v2 (c : Dev nD) : (GenP.V m c main_v2 : S16x512.Idx → EReal)
    = shapeCast S16x512 (m ((c.tc : Thread nD τ).loc main_arg2)) shapeCasts_S16x32x16_S16x512 := by
  show StableHlo.after hostOps0 (fun b => m (c, b)) (Proc.devRef .tc main_v2) = _
  after_results
  rfl
theorem V_v3 (c : Dev nD) : (GenP.V m c main_v3 : S16x512.Idx → EReal)
    = shapeCast S16x512 (m ((c.tc : Thread nD τ).loc main_arg3)) shapeCasts_S16x32x16_S16x512 := by
  show StableHlo.after hostOps0 (fun b => m (c, b)) (Proc.devRef .tc main_v3) = _
  after_results
  rfl
theorem V_v4 (c : Dev nD) : (GenP.V m c main_v4 : S16x64.Idx → EReal)
    = shapeCast S16x64 (m ((c.tc : Thread nD τ).loc main_arg4)) shapeCasts_S16x64x1_S16x64 := by
  show StableHlo.after hostOps0 (fun b => m (c, b)) (Proc.devRef .tc main_v4) = _
  after_results
  rfl

/-! ## Where each window's block sits -/

/-- Decided over the 32 grid points: every input window's block index is (0, 0) at every point, the output
    window's is (t, 0) at point t, and point t's one grid coordinate is t. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ ((grid0.coords t) 0).val = t.val :=
  (by decide +kernel : ∀ t : Fin grid0.N, _)

/-- An input window's block is its whole array: block index (0, 0), block size the array's size. -/
theorem blk0_whole (t : Fin cfg0.N) (X : S32x16.Idx → EReal) :
    ((cfg0.win 0).blk t).view.read (Elt Ideal) X = X := by
  funext y
  show X (((cfg0.win 0).blk t).view.emb y) = X y
  refine congrArg X ?_
  obtain ⟨e0, e1, -⟩ := idx_facts t
  funext a; apply Fin.ext
  match a with
  | ⟨0, _⟩ => show win0_0.index t (0 : Fin 2) * 32 + 1 * (y 0).val = (y 0).val; omega
  | ⟨1, _⟩ => show win0_0.index t (1 : Fin 2) * 16 + 1 * (y 1).val = (y 1).val; omega
theorem blk1_whole (t : Fin cfg0.N) (X : S16x512.Idx → EReal) :
    ((cfg0.win 1).blk t).view.read (Elt Ideal) X = X := by
  funext y
  show X (((cfg0.win 1).blk t).view.emb y) = X y
  refine congrArg X ?_
  obtain ⟨-, -, e0, e1, -⟩ := idx_facts t
  funext a; apply Fin.ext
  match a with
  | ⟨0, _⟩ => show win0_1.index t (0 : Fin 2) * 16 + 1 * (y 0).val = (y 0).val; omega
  | ⟨1, _⟩ => show win0_1.index t (1 : Fin 2) * 512 + 1 * (y 1).val = (y 1).val; omega
theorem blk2_whole (t : Fin cfg0.N) (X : S16x512.Idx → EReal) :
    ((cfg0.win 2).blk t).view.read (Elt Ideal) X = X := by
  funext y
  show X (((cfg0.win 2).blk t).view.emb y) = X y
  refine congrArg X ?_
  obtain ⟨-, -, -, -, e0, e1, -⟩ := idx_facts t
  funext a; apply Fin.ext
  match a with
  | ⟨0, _⟩ => show win0_2.index t (0 : Fin 2) * 16 + 1 * (y 0).val = (y 0).val; omega
  | ⟨1, _⟩ => show win0_2.index t (1 : Fin 2) * 512 + 1 * (y 1).val = (y 1).val; omega
theorem blk3_whole (t : Fin cfg0.N) (X : S16x512.Idx → EReal) :
    ((cfg0.win 3).blk t).view.read (Elt Ideal) X = X := by
  funext y
  show X (((cfg0.win 3).blk t).view.emb y) = X y
  refine congrArg X ?_
  obtain ⟨-, -, -, -, -, -, e0, e1, -⟩ := idx_facts t
  funext a; apply Fin.ext
  match a with
  | ⟨0, _⟩ => show win0_3.index t (0 : Fin 2) * 16 + 1 * (y 0).val = (y 0).val; omega
  | ⟨1, _⟩ => show win0_3.index t (1 : Fin 2) * 512 + 1 * (y 1).val = (y 1).val; omega
theorem blk4_whole (t : Fin cfg0.N) (X : S16x64.Idx → EReal) :
    ((cfg0.win 4).blk t).view.read (Elt Ideal) X = X := by
  funext y
  show X (((cfg0.win 4).blk t).view.emb y) = X y
  refine congrArg X ?_
  obtain ⟨-, -, -, -, -, -, -, -, e0, e1, -⟩ := idx_facts t
  funext a; apply Fin.ext
  match a with
  | ⟨0, _⟩ => show win0_4.index t (0 : Fin 2) * 16 + 1 * (y 0).val = (y 0).val; omega
  | ⟨1, _⟩ => show win0_4.index t (1 : Fin 2) * 64 + 1 * (y 1).val = (y 1).val; omega

/-! ## What a grid point writes -/

/-- The stored value at point t, entry (r, C), is the table's entry (2048 t + r, C): the one equation joining the
    two programs, instantiated at the point's grid coordinate. -/
theorem pay_row (hpay : Cert.Bridge.PayEq) (t : Fin cfg0.N) (x0 : FVec Ideal S32x16 .f32) (x1 x2 x3 : FVec Ideal S16x512 .f32)
    (x4 : FVec Ideal S16x64 .f32) (j : S2048x1024.Idx) (i : S65536x1024.Idx)
    (h0 : (i 0).val = t.val * 2048 + (j 0).val) (h1 : (i 1).val = (j 1).val) :
    k0_pay1 (F := Ideal) (grid0.coords t) x0 x1 x2 x3 x4 j = Stages.table2 (F := Ideal) x0 x1 x2 x3 x4 i := by
  have hN : grid0.N = 32 := N_0
  have ht : t.val < 32 := hN ▸ t.isLt
  obtain ⟨-, -, -, -, -, -, -, -, -, -, -, -, hc⟩ := idx_facts t
  have hp := hpay (grid0.coords t) ⟨t.val, ht⟩ hc x0 x1 x2 x3 x4 (j 0) (j 1)
  refine (congrArg (k0_pay1 (F := Ideal) (grid0.coords t) x0 x1 x2 x3 x4) (eq_ix2 j)).trans (hp.trans ?_)
  refine congrArg (Stages.table2 (F := Ideal) x0 x1 x2 x3 x4) ?_
  funext a; apply Fin.ext
  match a with
  | ⟨0, _⟩ => show 2048 * t.val + (j 0).val = (i 0).val; omega
  | ⟨1, _⟩ => show (j 1).val = (i 1).val; omega

/-- WHAT POINT t WRITES BACK is block t of the whole table: rows 2048 t … 2048 t + 2047, every column. -/
theorem flushed_eq (hpay : Cert.Bridge.PayEq) (c : Dev nD) (t : Fin cfg0.N) :
    (GenP.dats m 0 c).flushed 5 t = ((cfg0.win 5).blk t).view.read (Elt Ideal)
      (Stages.table2 (F := Ideal) (GenP.V m c main_v0) (GenP.V m c main_v1) (GenP.V m c main_v2) (GenP.V m c main_v3) (GenP.V m c main_v4)) := by
  show (cfg0.win 5).cut (grid0.coords t) ((GenP.dats m 0 c).after 5 t) = _
  rw [GenP.after0_5]
  unfold GenP.out0_5
  rw [View.canon_unit_zero hz]
  simp only [View.ld_unit_zero (S := S32x16) hz, View.ld_unit_zero (S := S16x512) hz, View.ld_unit_zero (S := S16x64) hz]
  have e0 : GenP.iblk m c 0 t = GenP.V m c main_v0 := blk0_whole t _
  have e1 : GenP.iblk m c 1 t = GenP.V m c main_v1 := blk1_whole t _
  have e2 : GenP.iblk m c 2 t = GenP.V m c main_v2 := blk2_whole t _
  have e3 : GenP.iblk m c 3 t = GenP.V m c main_v3 := blk3_whole t _
  have e4 : GenP.iblk m c 4 t = GenP.V m c main_v4 := blk4_whole t _
  rw [e0, e1, e2, e3, e4]
  obtain ⟨-, -, -, -, -, -, -, -, -, -, q0, q1, -⟩ := idx_facts t
  funext j
  show k0_pay1 (F := Ideal) (grid0.coords t) (GenP.V m c main_v0) (GenP.V m c main_v1) (GenP.V m c main_v2) (GenP.V m c main_v3) (GenP.V m c main_v4) j
    = Stages.table2 (F := Ideal) (GenP.V m c main_v0) (GenP.V m c main_v1) (GenP.V m c main_v2) (GenP.V m c main_v3) (GenP.V m c main_v4) (((cfg0.win 5).blk t).view.emb j)
  refine pay_row hpay t (GenP.V m c main_v0) (GenP.V m c main_v1) (GenP.V m c main_v2) (GenP.V m c main_v3) (GenP.V m c main_v4) j (((cfg0.win 5).blk t).view.emb j) ?_ ?_
  · show win0_5.index t (0 : Fin 2) * 2048 + 1 * (j 0).val = t.val * 2048 + (j 0).val
    omega
  · show win0_5.index t (1 : Fin 2) * 1024 + 1 * (j 1).val = (j 1).val
    omega

/-! ## The 32 blocks tile the table -/

/-- An index of the table is in point t's block iff each coordinate is in the block's range on its axis. -/
theorem mem_blk (t : Fin cfg0.N) (i : S65536x1024.Idx) :
    i ∈ ((cfg0.win 5).blk t).view.set ↔ ∀ a : Fin 2, win0_5.index t a * S2048x1024.size a ≤ (i a).val
      ∧ (i a).val < win0_5.index t a * S2048x1024.size a + S2048x1024.size a := by
  show i ∈ ((View.whole main_v5).slice (win0_5.rect t)).set ↔ _
  rw [View.set_slice_whole, Rect.mem_set_unit]
  exact Iff.rfl

/-- Row R of the table lies in the block of point R / 2048. -/
theorem cover (i : S65536x1024.Idx) :
    ∃ t : Fin cfg0.N, (cfg0.win 5).flush t = true ∧ i ∈ ((cfg0.win 5).blk t).view.set := by
  have hi0 : (i 0).val < 65536 := (i 0).isLt
  have hi1 : (i 1).val < 1024 := (i 1).isLt
  have ht : (i 0).val / 2048 < cfg0.N := by rw [show cfg0.N = 32 from N_0]; omega
  obtain ⟨t, htv⟩ : ∃ t : Fin cfg0.N, t.val = (i 0).val / 2048 := ⟨⟨_, ht⟩, rfl⟩
  obtain ⟨-, -, -, -, -, -, -, -, -, -, q0, q1, -⟩ := idx_facts t
  refine ⟨t, flush0_5 t, ?_⟩
  rw [mem_blk]
  intro a
  match a with
  | ⟨0, _⟩ =>
    show win0_5.index t (0 : Fin 2) * 2048 ≤ (i 0).val ∧ (i 0).val < win0_5.index t (0 : Fin 2) * 2048 + 2048
    omega
  | ⟨1, _⟩ =>
    show win0_5.index t (1 : Fin 2) * 1024 ≤ (i 1).val ∧ (i 1).val < win0_5.index t (1 : Fin 2) * 1024 + 1024
    omega

/-- THE TABLE after the grid: the reference's table of the five cores. -/
theorem final (hpay : Cert.Bridge.PayEq) (c : Dev nD) :
    (GenP.dats m 0 c).arrAt 5 cfg0.N
      = Stages.table2 (F := Ideal) (GenP.V m c main_v0) (GenP.V m c main_v1) (GenP.V m c main_v2) (GenP.V m c main_v3) (GenP.V m c main_v4) :=
  (GenP.dats m 0 c).arrAt_eq_of_cover 5
    (Stages.table2 (F := Ideal) (GenP.V m c main_v0) (GenP.V m c main_v1) (GenP.V m c main_v2) (GenP.V m c main_v3) (GenP.V m c main_v4))
    (fun t _ => flushed_eq m hpay c t) cover

/-! ## The gather after the grid -/

attribute [local irreducible] Host.gather Host.reduce in
/-- The operations after the grid are the reference's gather, applied to whatever table the grid left and to the index
    argument as launched: the same operations in the same order over the same shapes. -/
theorem tail_of (c : Dev nD) (T : S65536x1024.Idx → EReal) (hT : (GenP.dats m 0 c).arrAt 5 cfg0.N = T) :
    Pipeline.afterTail₀ cfgs (GenP.dats m) 0 (GenP.V0 m) [hostOps1] c main_v6
      = Stages.take (F := Ideal) T (m ((c.tc : Thread nD τ).loc main_arg5)) := by
  unfold Pipeline.afterTail₀
  rw [List.flatten_cons, List.flatten_nil, List.append_nil]
  after_results_simp
  have e5 : Pipeline.withArrays (cfgs 0).spec c (GenP.V0 m c) (fun w => (GenP.dats m 0 c).arrAt w (cfgs 0).N)
      (Proc.devRef .tc main_v5) = T :=
    (Pipeline.withArrays_arr spec0 launch0.win.arr_inj c _ _ 5).trans hT
  have ea : Pipeline.withArrays (cfgs 0).spec c (GenP.V0 m c) (fun w => (GenP.dats m 0 c).arrAt w (cfgs 0).N)
      (Proc.devRef .tc main_arg5) = m ((c.tc : Thread nD τ).loc main_arg5) :=
    (Pipeline.withArrays_of_ne _ c (GenP.V0 m c) _ main_arg5
      (by exact (by decide : ∀ w, Pipeline.arrRef spec0 w ≠ main_arg5))).trans (GenP.V_main_arg5 m c)
  rw [e5, ea]
  generalize m ((c.tc : Thread nD τ).loc main_arg5) = idx
  rfl

/-- The table of the five cores as the grid finds them is the table of the five argument arrays. -/
theorem table_eq (c : Dev nD) :
    Stages.table2 (F := Ideal) (GenP.V m c main_v0) (GenP.V m c main_v1) (GenP.V m c main_v2) (GenP.V m c main_v3) (GenP.V m c main_v4)
      = Stages.table (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  rw [V_v0 m c, V_v1 m c, V_v2 m c, V_v3 m c, V_v4 m c]
  rfl

/-- The result buffer after the whole program: the gather of the reference's table at the index argument. -/
theorem tail_eq (hpay : Cert.Bridge.PayEq) (c : Dev nD) :
    Pipeline.afterTail₀ cfgs (GenP.dats m) 0 (GenP.V0 m) [hostOps1] c main_v6
      = Stages.take (F := Ideal) (Stages.table (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)))
        (m ((c.tc : Thread nD τ).loc main_arg5)) :=
  tail_of m c _ ((final m hpay c).trans (table_eq m c))

/-! ## The run, read -/

/-- The program's run re-posted: the result buffer at the reference's gather of the reference's table of the five
    argument arrays, the six arguments as launched. -/
theorem run (hpay : Cert.Bridge.PayEq) (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v6)
          = Stages.take (F := Ideal) (Stages.table (F := Ideal) (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4)))
            (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨((h c).2 main_v6 (Pipeline.mem_restRefs_of main_v6 (by decide) (by decide))).trans (tail_eq m hpay c),
      ((h c).2 main_arg0 (Pipeline.mem_restRefs_of main_arg0 (by decide) (by decide))).trans (GenP.W_main_arg0 m (GenP.dats m) c),
      ((h c).2 main_arg1 (Pipeline.mem_restRefs_of main_arg1 (by decide) (by decide))).trans (GenP.W_main_arg1 m (GenP.dats m) c),
      ((h c).2 main_arg2 (Pipeline.mem_restRefs_of main_arg2 (by decide) (by decide))).trans (GenP.W_main_arg2 m (GenP.dats m) c),
      ((h c).2 main_arg3 (Pipeline.mem_restRefs_of main_arg3 (by decide) (by decide))).trans (GenP.W_main_arg3 m (GenP.dats m) c),
      ((h c).2 main_arg4 (Pipeline.mem_restRefs_of main_arg4 (by decide) (by decide))).trans (GenP.W_main_arg4 m (GenP.dats m) c),
      ((h c).2 main_arg5 (Pipeline.mem_restRefs_of main_arg5 (by decide) (by decide))).trans (GenP.W_main_arg5 m (GenP.dats m) c)⟩)
    (GenP.run_main m ρ)

/-- info: 'Cert.KernelIdeal.KValue.run' depends on axioms: [propext, Classical.choice, Quot.sound] -/
#guard_msgs in #print axioms run

end Cert.KernelIdeal.KValue

end
-- ==== Proof.lean ====
/-
  The tensor-train embedding lookup: a Pallas kernel that rebuilds the [65536,1024] table block by block, against the
  reference that rebuilds it on the host, both followed by the same gather of rows.

  The table is a chain of products of five small cores: the [32,16] core times a [16,512] core, the product re-read
  row-major as a matrix with sixteen columns, times the next core, and so on four times. Row-major re-reading never
  mixes the 32 rows of the first core: everything computed from row `p` stays in one contiguous block of rows — rows
  `32 p …` of 1024, then `1024 p …` of 32768, `32768 p …` of 1048576, and at the end rows `2048 p … 2048 p + 2047` of the
  table. The kernel's grid point `p` selects row `p` of the first core with a one-hot row (`1 · x = x`, `0 · x = 0` on
  the extended reals, so the selection is exact) and runs the rest of the chain on that single row: what it stores is
  exactly that block of 2048 rows of the reference's table (`Cert.Bridge.pay_eq`). The 32 blocks tile the table, so
  after the region the kernel's table IS the reference's, entry by entry, as extended reals; no cancellation or
  distributivity is used, only that both sides are the same sums of the same products, so the precondition is never
  opened. The rows are then gathered by the same host function on both sides (`Stages.take`), which is carried as one
  function and never opened. Nothing was rewritten by the ideal pass, so `preserves` is `True`.
-/
import proofs.«100464_j80994493268368_1_alg».proof.Defs
import proofs.«100464_j80994493268368_1_alg».proof.Proof.Gen.Kernel
import proofs.«100464_j80994493268368_1_alg».proof.Proof.Gen.KernelIdeal
import proofs.«100464_j80994493268368_1_alg».proof.Proof.Gen.ReferenceIdeal
import proofs.«100464_j80994493268368_1_alg».proof.Proof.Gen.Pre_finite_inputs
import proofs.«100464_j80994493268368_1_alg».proof.Proof.FrameKernel
import proofs.«100464_j80994493268368_1_alg».proof.Proof.FrameKernelIdeal
import proofs.«100464_j80994493268368_1_alg».proof.Proof.RefRun
import proofs.«100464_j80994493268368_1_alg».proof.Proof.Levels
import proofs.«100464_j80994493268368_1_alg».proof.Proof.KernelValue
import Idealize.ShloMosaic.Adequacy
import Idealize.ShloMosaic.Init

noncomputable section

namespace Cert.Proof

open Idealize.ShloMosaic Idealize.SL.Sem

/-- The kernel as printed runs, and its arguments end unchanged. -/
theorem frame_kernel : Cert.frame_Kernel := fun m ρ _ => Cert.Kernel.GenP.frame m ρ

/-- So does its idealization. -/
theorem frame_kernelIdeal : Cert.frame_KernelIdeal := fun m ρ _ => Cert.KernelIdeal.GenP.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The ideal pass rewrote nothing. -/
theorem preserves : Cert.preserves_Kernel_KernelIdeal := trivial

/-- Both programs end with the rows of ONE table — the chain of products of the five cores — gathered at the
    indices: the kernel's run names its result so (its table is the reference's by `Cert.Bridge.pay_eq`, block by
    block), the reference's run is that term by construction, and the arguments agree. -/
theorem algebraic : Cert.algebraic_KernelIdeal_ReferenceIdeal := by
  intro m ρ m' ρ' _ hagree
  refine ⟨_, Cert.KernelIdeal.KValue.run Cert.Bridge.pay_eq m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
